-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel

variable [Facts]

def fn {F : FTy → Type} [FloatOps F] (main_arg0 : FVec F S32x8x256x256 .f32) (main_arg1 : FVec F S32x8x256x256 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  let main_cst_2 : FVec F S_ .f32 := constant S_ .f32 0x00000000#32
  let main_v9 : FVec F S32x8x256x256 .f32 := broadcastInDim S32x8x256x256 ![] bcast_S_S32x8x256x256 main_cst_2
  let main_v10 : IVec S32x8x256x256 1 := cmpf .ogt main_arg1 main_v9
  let main_c_3 : IVec S_ 1 := constantI S_ 1 1#1
  let main_v11 : IVec S_ 1 := (fun x v => Host.reduce IntOp.andi x v reducesTo_S32x8x256x256_S_d0_1_2_3 h_S_) main_v10 main_c_3
  let main_v12 : IVec S_ 1 := andi main_v8 main_v11
  main_v12
-- ==== Kernel.lean ====
abbrev S32x8x256x256 : Shape := ⟨4, ![32, 8, 256, 256]⟩
abbrev S1x8x256x256 : Shape := ⟨4, ![1, 8, 256, 256]⟩
abbrev S8x256x256 : Shape := ⟨3, ![8, 256, 256]⟩
abbrev S8x256 : Shape := ⟨2, ![8, 256]⟩
abbrev S8x1x256 : Shape := ⟨3, ![8, 1, 256]⟩
abbrev S8x256x1 : Shape := ⟨3, ![8, 256, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x8x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x8x256x256, .f32⟩
  | .local _ .vmem, ⟨3, _⟩ => ⟨S1x8x256x256, .f32⟩
  | .local _ .vmem, ⟨4, _⟩ => ⟨S1x8x256x256, .f32⟩
  | .local _ .vmem, ⟨5, _⟩ => ⟨S1x8x256x256, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  reduces_S8x256x256_S8x256 : S8x256x256.Reduces [1] S8x256
  shapeCasts_S8x256_S8x1x256 : S8x256.ShapeCasts S8x1x256
  broadcasts_S8x1x256_S8x256x256 : S8x1x256.Broadcasts S8x256x256
  reduces_S8x256x256_S8x256_2 : S8x256x256.Reduces [2] S8x256
  shapeCasts_S8x256_S8x256x1 : S8x256.ShapeCasts S8x256x1
  broadcasts_S8x256x1_S8x256x256 : S8x256x1.Broadcasts S8x256x256
  bitsLt_bf16_f32 : FTy.bits .bf16 < FTy.bits .f32
  shapeCasts_S8x256x256_S1x8x256x256 : S8x256x256.ShapeCasts S1x8x256x256
  dot_S8x256x256_S8x256x256_S8x256x256_2_1_1_2_0_0_wf : DotDims.WF S8x256x256 S8x256x256 S8x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S32x8x256x256.size a
  hwx0_0 : ∀ i : grid0.Coords, EltTy.bits .f32 = 32 ∨ (Rect.block (s := S32x8x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x256.size a ≤ S32x8x256x256.size a
  hwx0_1 : ∀ i : grid0.Coords, EltTy.bits .f32 = 32 ∨ (Rect.block (s := S32x8x256x256) S1x8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S32x8x256x256.size a
  hwx0_2 : ∀ i : grid0.Coords, EltTy.bits .f32 = 32 ∨ (Rect.block (s := S32x8x256x256) S1x8x256x256.size (cc0_transform_2 i) (hinb0_2 i)).WholeWords (EltTy.packing .f32)

variable [Facts₀]

def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x256x256 : Shape := ⟨4, ![32, 8, 256, 256]⟩
abbrev S_ : Shape := ⟨0, ![]⟩
abbrev S32x8x256 : Shape := ⟨3, ![32, 8, 256]⟩
abbrev S32x8x1x256 : Shape := ⟨4, ![32, 8, 1, 256]⟩
abbrev S32x8x256x1 : Shape := ⟨4, ![32, 8, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S32x8x256x256, .f32⟩
  | .hbm, ⟨3, _⟩ => ⟨S_, .f32⟩
  | .hbm, ⟨4, _⟩ => ⟨S32x8x256, .f32⟩
  | .hbm, ⟨5, _⟩ => ⟨S_, .f32⟩
  | .hbm, ⟨6, _⟩ => ⟨S32x8x256, .f32⟩
  | .hbm, ⟨7, _⟩ => ⟨S32x8x256, .f32⟩
  | .hbm, ⟨8, _⟩ => ⟨S32x8x1x256, .f32⟩
  | .hbm, ⟨9, _⟩ => ⟨S32x8x256x256, .f32⟩
  | .hbm, ⟨10, _⟩ => ⟨S32x8x256x256, .f32⟩
  | .hbm, ⟨11, _⟩ => ⟨S32x8x256x256, .f32⟩
  | .hbm, ⟨12, _⟩ => ⟨S_, .f32⟩
  | .hbm, ⟨13, _⟩ => ⟨S32x8x256, .f32⟩
  | .hbm, ⟨14, _⟩ => ⟨S32x8x1x256, .f32⟩
  | .hbm, ⟨15, _⟩ => ⟨S32x8x1x256, .f32⟩
  | .hbm, ⟨16, _⟩ => ⟨S32x8x256x256, .f32⟩
  | .hbm, ⟨17, _⟩ => ⟨S32x8x256x256, .f32⟩
  | .hbm, ⟨18, _⟩ => ⟨S_, .f32⟩
  | .hbm, ⟨19, _⟩ => ⟨S32x8x256, .f32⟩
  | .hbm, ⟨20, _⟩ => ⟨S32x8x256x1, .f32⟩
  | .hbm, ⟨21, _⟩ => ⟨S_, .f32⟩
  | .hbm, ⟨22, _⟩ => ⟨S32x8x256, .f32⟩
  | .hbm, ⟨23, _⟩ => ⟨S32x8x1x256, .f32⟩
  | .hbm, ⟨24, _⟩ => ⟨S32x8x256x256, .f32⟩
  | .hbm, ⟨25, _⟩ => ⟨S32x8x256x256, .f32⟩
  | .hbm, ⟨26, _⟩ => ⟨S32x8x256x256, .f32⟩
  | .hbm, ⟨27, _⟩ => ⟨S32x8x256x256, .f32⟩
  | .hbm, ⟨28, _⟩ => ⟨S32x8x256x256, .f32⟩
  | .hbm, ⟨29, _⟩ => ⟨S32x8x256x256, .f32⟩
  | .hbm, ⟨30, _⟩ => ⟨S32x8x256x256, .f32⟩
  | .hbm, ⟨31, _⟩ => ⟨S32x8x256x256, .f32⟩
  | .hbm, ⟨32, _⟩ => ⟨S32x8x256x256, .f32⟩
  | .hbm, ⟨33, _⟩ => ⟨S32x8x256x256, .f32⟩
  | .hbm, ⟨34, _⟩ => ⟨S32x8x256x256, .f32⟩
  | .hbm, ⟨35, _⟩ => ⟨S32x8x256x256, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]

class Facts₀ : Prop where
  reducesTo_S32x8x256x256_S32x8x256_d2 : S32x8x256x256.ReducesTo [2] S32x8x256
  h_S_ : 0 < S_.numel
  bcast_S_S32x8x256 : S_.BroadcastsInDim S32x8x256 (![] : Fin 0 → Fin S32x8x256.rank)
  bcast_S32x8x256_S32x8x1x256_0_1_3 : S32x8x256.BroadcastsInDim S32x8x1x256 (![0, 1, 3] : Fin 3 → Fin S32x8x1x256.rank)
  bcast_S32x8x1x256_S32x8x256x256_0_1_2_3 : S32x8x1x256.BroadcastsInDim S32x8x256x256 (![0, 1, 2, 3] : Fin 4 → Fin S32x8x256x256.rank)
  reducesTo_S32x8x256x256_S32x8x256_d3 : S32x8x256x256.ReducesTo [3] S32x8x256
  bcast_S32x8x256_S32x8x256x1_0_1_2 : S32x8x256.BroadcastsInDim S32x8x256x1 (![0, 1, 2] : Fin 3 → Fin S32x8x256x1.rank)
  bcast_S32x8x256x1_S32x8x256x256_0_1_2_3 : S32x8x256x1.BroadcastsInDim S32x8x256x256 (![0, 1, 2, 3] : Fin 4 → Fin S32x8x256x256.rank)
  dot_S32x8x256x256_S32x8x256x256_S32x8x256x256_3_2_2_3_01_01_wf : DotDims.WF S32x8x256x256 S32x8x256x256 S32x8x256x256 [3] [2] [2] [3] [0, 1] [0, 1]

variable [Facts₀]

def dot_S32x8x256x256_S32x8x256x256_S32x8x256x256_3_2_2_3_01_01 : DotDims S32x8x256x256 S32x8x256x256 S32x8x256x256 where
  lhsContracting := [3]
  rhsContracting := [2]
  lhsNonContracting := [2]
  rhsNonContracting := [3]
  lhsBatch := [0, 1]
  rhsBatch := [0, 1]
  wf := dot_S32x8x256x256_S32x8x256x256_S32x8x256x256_3_2_2_3_01_01_wf

class Facts : Prop extends Facts₀ where

variable [Facts]
-- ==== Proof.Spec.lean ====
/-
  The common specification of the dense log-sum layer.

  For one scope s and one decomposition d the layer takes a row x[b, ·] of log-values and a column a[·, j] of
  weights and returns

      log (∑ i, exp (x i - xm) * exp (w i - wm)) + xm + wm,

  where w is the column of normalised log-weights, xm the maximum of the row and wm the maximum of the column w.
  Both programs compute exactly this expression of (x, w); they differ only in how the column w of normalised
  log-weights is obtained from the weights a:

    * directly:          w i = log (a i) - log (∑ k, a k);
    * as a log-softmax:  w i = (z i - M) - log (0 + ∑ k, exp (z k - M)),  z = log ∘ a,  M = max (-∞) (max_k z k).

  For positive real weights the two columns agree (Proof/Law.lean), hence so do the two results.
-/
import Idealize.ShloMosaic.PureOps.Ideal
import Idealize.ShloMosaic.Lib.ValueIdx

noncomputable section

namespace Cert.DenseSum

open Idealize.ShloMosaic Idealize.ShloMosaic.ValueIdx

/-- The shape of both arguments and of the result: scopes × decompositions × 256 × 256. -/
abbrev Sh4 : Shape := ⟨4, ![32, 8, 256, 256]⟩

/-- The word both programs start a maximum from (the f32 pattern of -∞). -/
abbrev negInf : EReal := Ideal.ofBits .f32 0xFF800000#32

/-- The word the host's sum starts from (the f32 pattern of +0). -/
abbrev zeroW : EReal := Ideal.ofBits .f32 0x00000000#32

/-- The maximum of a family of 256 extended reals, folded from the -∞ word. -/
def famMax (f : Fin 256 → EReal) : EReal := (Finset.univ : Finset (Fin 256)).fold max negInf f

/-- The normalised log-weights of a column of weights, computed directly: log a_i - log (∑ a). -/
def lwDirect (a : Fin 256 → EReal) : Fin 256 → EReal :=
  fun i => Ideal.log (a i) - Ideal.log (∑ k : Fin 256, a k)

/-- The shift a log-softmax subtracts: the maximum of the log-weights (and of -∞). -/
def lsmShift (a : Fin 256 → EReal) : EReal := max negInf (famMax fun k => Ideal.log (a k))

/-- The normalised log-weights of a column of weights as a log-softmax of their logarithms. -/
def lwSoftmax (a : Fin 256 → EReal) : Fin 256 → EReal :=
  fun i => (Ideal.log (a i) - lsmShift a)
    - Ideal.log (zeroW + ∑ k : Fin 256, Ideal.exp (Ideal.log (a k) - lsmShift a))

/-- The stabilised log-sum-exp of a row of log-values against a column of log-weights. -/
def core (x w : Fin 256 → EReal) : EReal :=
  Ideal.log (∑ i : Fin 256, Ideal.exp (x i - famMax x) * Ideal.exp (w i - famMax w)) + famMax x + famMax w

/-- Row (s, d, b, ·) of an array. -/
def rowOf (X : Sh4.Idx → EReal) (s : Fin 32) (d : Fin 8) (b : Fin 256) : Fin 256 → EReal :=
  fun k => X (ix4 s d b k)

/-- Column (s, d, ·, j) of an array. -/
def colOf (A : Sh4.Idx → EReal) (s : Fin 32) (d : Fin 8) (j : Fin 256) : Fin 256 → EReal :=
  fun k => A (ix4 s d k j)

/-- The layer with the column normalised directly, as one function of the two argument arrays. -/
def outDirect (X A : Sh4.Idx → EReal) : Sh4.Idx → EReal :=
  fun i => core (rowOf X (i 0) (i 1) (i 2)) (lwDirect (colOf A (i 0) (i 1) (i 3)))

/-- The layer with the column normalised by a log-softmax. -/
def outSoftmax (X A : Sh4.Idx → EReal) : Sh4.Idx → EReal :=
  fun i => core (rowOf X (i 0) (i 1) (i 2)) (lwSoftmax (colOf A (i 0) (i 1) (i 3)))

end Cert.DenseSum

end
-- ==== Proof.Law.lean ====
/-
  The two ways of normalising a column of positive weights agree.

  For positive real weights a_k = r_k put z_k = log r_k.  The shift M subtracted by the log-softmax is a
  real number (it is a maximum of finitely many reals, folded from -∞), and for ANY real M

      exp (z_k - M) = r_k / e^M,      ∑ k, exp (z_k - M) = (∑ r) / e^M  > 0,
      log ((∑ r) / e^M) = log (∑ r) - M,

  so that (z_i - M) - (log (∑ r) - M) = z_i - log (∑ r): the shift cancels.  All of this happens among
  finite reals, so the extended-real operations are the real ones under the coercion.
-/
import Mathlib
import Idealize.ShloMosaic.PureOps.Ideal.Laws
import proofs.«107394_j28698971471971_1_alg».proof.Proof.Spec

noncomputable section

namespace Cert.DenseSum

open Idealize.ShloMosaic

/-- The f32 pattern of -∞ denotes the bottom of the extended reals. -/
theorem negInf_eq_bot : negInf = ⊥ := by
  simp [negInf, Ideal.ofBits, Ideal.ieee]

/-- The f32 pattern of +0 denotes zero. -/
theorem zeroW_eq_zero : zeroW = 0 := by
  simp [zeroW, Ideal.ofBits, Ideal.ieee]

/-- The coercion ℝ → EReal commutes with finite sums. -/
theorem coe_finsum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A maximum of finitely many reals folded from -∞ is never +∞. -/
theorem fold_max_coe_ne_top {ι : Type*} (s : Finset ι) (z : ι → ℝ) :
    s.fold max (⊥ : EReal) (fun k => ((z k : ℝ) : EReal)) ≠ ⊤ := by
  classical
  induction s using Finset.induction_on with
  | empty => simp
  | insert a s ha ih =>
    rw [Finset.fold_insert ha]
    intro h
    rcases max_eq_top.mp h with h | h
    · exact EReal.coe_ne_top _ h
    · exact ih h

/-- The logarithm of a positive real, read in the extended reals, is the real logarithm. -/
theorem log_coe_pos {x : ℝ} (hx : 0 < x) : Ideal.log ((x : ℝ) : EReal) = ((Real.log x : ℝ) : EReal) := by
  rw [Ideal.log_coe, if_neg (not_le.mpr hx)]

theorem lwDirect_eq_lwSoftmax (a : Fin 256 → EReal) (ha : ∀ k, ∃ r : ℝ, 0 < r ∧ a k = (r : EReal)) :
    lwDirect a = lwSoftmax a := by
  choose r hr using ha
  have hpos : ∀ k, 0 < r k := fun k => (hr k).1
  have hae : a = fun k => ((r k : ℝ) : EReal) := funext fun k => (hr k).2
  subst hae
  have hlog : ∀ k, Ideal.log ((r k : ℝ) : EReal) = ((Real.log (r k) : ℝ) : EReal) :=
    fun k => log_coe_pos (hpos k)
  -- the shift is a real number m
  obtain ⟨m, hm⟩ : ∃ m : ℝ, lsmShift (fun k => ((r k : ℝ) : EReal)) = (m : EReal) := by
    have h1 : lsmShift (fun k => ((r k : ℝ) : EReal))
        = (Finset.univ : Finset (Fin 256)).fold max ⊥ (fun k => ((Real.log (r k) : ℝ) : EReal)) := by
      simp only [lsmShift, famMax, negInf_eq_bot, hlog, bot_le, max_eq_right]
    have hne_top := fold_max_coe_ne_top (Finset.univ : Finset (Fin 256)) (fun k => Real.log (r k))
    have hne_bot : (Finset.univ : Finset (Fin 256)).fold max ⊥
        (fun k => ((Real.log (r k) : ℝ) : EReal)) ≠ ⊥ := by
      intro h
      have hle : ((Real.log (r 0) : ℝ) : EReal) ≤ (Finset.univ : Finset (Fin 256)).fold max ⊥
          (fun k => ((Real.log (r k) : ℝ) : EReal)) :=
        (Finset.le_fold_max _).mpr (Or.inr ⟨0, Finset.mem_univ _, le_rfl⟩)
      rw [h] at hle
      exact EReal.coe_ne_bot _ (le_bot_iff.mp hle)
    exact ⟨_, h1.trans (EReal.coe_toReal hne_top hne_bot).symm⟩
  -- the sum of the weights and the sum of the shifted exponentials are positive reals
  have hS : 0 < ∑ k : Fin 256, r k := Finset.sum_pos (fun k _ => hpos k) Finset.univ_nonempty
  have hexp : ∀ k, Real.exp (Real.log (r k) - m) = r k / Real.exp m := by
    intro k; rw [Real.exp_sub, Real.exp_log (hpos k)]
  have hsum : ∑ k : Fin 256, Real.exp (Real.log (r k) - m) = (∑ k : Fin 256, r k) / Real.exp m := by
    rw [Finset.sum_div]; exact Finset.sum_congr rfl fun k _ => hexp k
  have hT : 0 < (∑ k : Fin 256, r k) / Real.exp m := div_pos hS (Real.exp_pos m)
  have hlogT : Real.log ((∑ k : Fin 256, r k) / Real.exp m) = Real.log (∑ k : Fin 256, r k) - m := by
    rw [Real.log_div hS.ne' (Real.exp_pos m).ne', Real.log_exp]
  funext i
  simp only [lwDirect, lwSoftmax, hm, hlog, zeroW_eq_zero, zero_add, ← EReal.coe_sub, Ideal.exp_coe,
    coe_finsum, hsum, log_coe_pos hS, log_coe_pos hT, hlogT]
  congr 1
  ring

theorem outDirect_eq_outSoftmax (X A : Sh4.Idx → EReal) (hA : ∀ i, ∃ r : ℝ, 0 < r ∧ A i = (r : EReal)) :
    outDirect X A = outSoftmax X A := by
  funext i
  unfold outDirect outSoftmax
  rw [lwDirect_eq_lwSoftmax (colOf A (i 0) (i 1) (i 3)) (fun k => hA _)]

end Cert.DenseSum

end
-- ==== Proof.PreFacts.lean ====
/-
  What the precondition says of the weights.

  The precondition is the conjunction of three "for all elements" tests, each a reduction by `and` of an array of
  one-bit comparison words over all four axes into a single word, and the claim is that the conjunction is 1:

      (∀ i, |x i| < +∞)  ∧  (∀ i, |a i| < +∞)  ∧  (∀ i, a i > 0).

  Read at the ideal instance, where a float is an extended real and |v| is max v (-v), the second and third tests
  say of every weight a i that max (a i) (-(a i)) < ⊤ and 0 < a i. An extended real with these two properties is
  neither ⊥ (not positive) nor ⊤ (its absolute value is not below ⊤), so it is a real number r, and 0 < r.
-/
import Idealize.ShloMosaic.Lib.ReduceAll
import Idealize.ShloMosaic.Lib.IdealHost
import Idealize.ShloMosaic.PureOps.Ideal.Laws
import proofs.«107394_j28698971471971_1_alg».proof.Pre_finite_inputs
import proofs.«107394_j28698971471971_1_alg».proof.Proof.Spec

noncomputable section

namespace Cert.DenseSum

open Idealize.ShloMosaic Idealize.ShloMosaic.ValueIdx

/-- The rank-0 shape has exactly one index (there is no axis to give a coordinate for). -/
instance scalarIdx_subsingleton : Subsingleton Cert.Pre_finite_inputs.S_.Idx := ⟨fun a b => funext fun d => d.elim0⟩

/-- A one-bit word made from a Boolean is 1 exactly when the Boolean is true. -/
theorem ofBool_eq_one (b : Bool) : BitVec.ofBool b = 1#1 ↔ b = true := by cases b <;> decide

/-- The f32 pattern of +∞ is the extended real ⊤. -/
theorem ofBits_inf_f32 : Ideal.ofBits .f32 0x7F800000#32 = ⊤ := by simp [Ideal.ofBits, Ideal.ieee]

/-- An extended real whose absolute value max a (-a) compares below ⊤ and which compares above 0 is a positive
    real: ⊥ is not above 0, ⊤ has absolute value ⊤, and for a real r the comparison 0 < (r : EReal) is 0 < r. -/
theorem pos_real_of_words (a : EReal)
    (hfin : Ideal.cmp .olt (max a (-a)) ⊤ = 1#1) (hpos : Ideal.cmp .ogt a 0 = 1#1) :
    ∃ r : ℝ, 0 < r ∧ a = (r : EReal) := by
  unfold Ideal.cmp at hfin hpos
  rw [ofBool_eq_one] at hfin hpos
  simp only [decide_eq_true_eq] at hfin hpos
  induction a using EReal.rec with
  | bot => simp at hpos
  | top => simp at hfin
  | coe r => exact ⟨r, EReal.coe_pos.1 hpos, rfl⟩

/-- THE PRECONDITION DECODED: every weight is a positive real number.

    The claim at the result's one index is a conjunction (by `and`) of three reductions; the second and third are
    each 1, so each of their operand words is 1 at every index i. The operand words at i are the comparisons
    |A i| < (+∞ word) and A i > (zero word), the constants being rank-0 arrays broadcast to the full shape. -/
theorem weights_pos [Cert.Pre_finite_inputs.Facts]
    (X A : FVec Ideal Cert.Pre_finite_inputs.S32x8x256x256 .f32)
    (h : Cert.Pre_finite_inputs.fn (F := Ideal) X A = fun _ => 1#1) :
    ∀ i : Sh4.Idx, ∃ r : ℝ, 0 < r ∧ A i = (r : EReal) := by
  intro i
  have h0 := congrFun h ValueIdx.ix0
  dsimp only [Cert.Pre_finite_inputs.fn] at h0
  -- split the two conjunctions; keep "all |A| < +∞" (hB) and "all A > 0" (hC)
  obtain ⟨h12, hC⟩ := IntOp.andi_eq_one.1 h0
  obtain ⟨-, hB⟩ := IntOp.andi_eq_one.1 h12
  -- a reduction by `and` over all axes that is 1 had a 1 at every operand index
  have eB := Host.reduce_andi_all _ _ _ _ _ hB i
  have eC := Host.reduce_andi_all _ _ _ _ _ hC i
  -- read the comparison at index i: the broadcast scalar is the constant's word, the comparison is the ideal one
  rw [cmpf_apply, broadcastInDim_scalar_apply, constant_apply, Ideal.cmpf_def] at eB eC
  rw [ofBits_inf_f32] at eB
  rw [Ideal.ofBits_zero_f32] at eC
  exact pos_real_of_words (A i) eB eC

end Cert.DenseSum

end
-- ==== Proof.KernelOps.lean ====
/-
  The kernel body's value, read at an index.

  One grid point works on the slab of one scope: the block x0 = x[s] of shape [1, 8, 256, 256] and the block
  x1 = a[s] of the same shape. The body drops the leading unit axis, forms for every decomposition d

    * the column of normalised log-weights  w(i, j) = log a(i, j) - log (∑ i', a(i', j)),
    * the row maxima  xm(b) = max_i x(b, i)  and the column maxima  wm(j) = max_i w(i, j)  (both from -∞),
    * the product  y(b, j) = ∑ i, exp (x(b, i) - xm(b)) * exp (w(i, j) - wm(j))  on the matrix unit
      (a batched contraction: d is carried along, i is summed; the roundings to bf16 in front of it are the
      identity on extended reals),

  and stores  log y + xm + wm.  Read at (d, b, j) this is `core` of row (d, b, ·) of x0 and of the directly
  normalised column (d, ·, j) of x1: the statement `payload_apply` at the end. The steps in between read each
  layout operation, each reduction and the contraction at explicit coordinates.
-/
import proofs.«107394_j28698971471971_1_alg».proof.Proof.Gen.KernelIdeal.Skeleton
import proofs.«107394_j28698971471971_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.DenseSum.KernelSide

open Cert.KernelIdeal Cert.KernelIdeal.Gen Idealize.ShloMosaic Idealize.ShloMosaic.ValueIdx Cert.DenseSum

/-! ## Layout operations at explicit coordinates -/

section Layout
variable {α : Type}

/-- A [8, 256] array viewed [8, 1, 256]: entry (d, ·, j) is entry (d, j). -/
theorem cast_mid_apply (x : S8x256.Idx → α) (h : S8x256.ShapeCasts S8x1x256) (d : Fin 8) (u : Fin 1) (j : Fin 256) :
    shapeCast S8x1x256 x h (ix3 d u j) = x (ix2 d j) :=
  shapeCast_apply x h _ _ (by
    have hu : u.val = 0 := by omega
    rw [Shape.rowMajor_val_three, Shape.rowMajor_val_two]
    show d.val * 256 + j.val = (d.val * 1 + u.val) * 256 + j.val
    rw [hu]; omega)

/-- A [8, 256] array viewed [8, 256, 1]: entry (d, b, ·) is entry (d, b). -/
theorem cast_last_apply (x : S8x256.Idx → α) (h : S8x256.ShapeCasts S8x256x1) (d : Fin 8) (b : Fin 256) (u : Fin 1) :
    shapeCast S8x256x1 x h (ix3 d b u) = x (ix2 d b) :=
  shapeCast_apply x h _ _ (by
    have hu : u.val = 0 := by omega
    rw [Shape.rowMajor_val_three, Shape.rowMajor_val_two]
    show d.val * 256 + b.val = (d.val * 256 + b.val) * 1 + u.val
    rw [hu]; omega)

/-- A [8, 1, 256] array spread over the middle axis: entry (d, k, j) is entry (d, 0, j). -/
theorem bcast_mid_apply (x : S8x1x256.Idx → α) (h : S8x1x256.Broadcasts S8x256x256) (d : Fin 8) (k j : Fin 256) :
    broadcastTo S8x256x256 x h (ix3 d k j) = x (ix3 d (0 : Fin 1) j) :=
  broadcastTo_apply x h _ _ fun a => match a with | ⟨0, _⟩ => rfl | ⟨1, _⟩ => rfl | ⟨2, _⟩ => rfl

/-- A [8, 256, 1] array spread over the last axis: entry (d, b, k) is entry (d, b, 0). -/
theorem bcast_last_apply (x : S8x256x1.Idx → α) (h : S8x256x1.Broadcasts S8x256x256) (d : Fin 8) (b k : Fin 256) :
    broadcastTo S8x256x256 x h (ix3 d b k) = x (ix3 d b (0 : Fin 1)) :=
  broadcastTo_apply x h _ _ fun a => match a with | ⟨0, _⟩ => rfl | ⟨1, _⟩ => rfl | ⟨2, _⟩ => rfl

end Layout

/-! ## The reductions at explicit coordinates -/

/-- The sum over the middle axis, at (d, j): the sum over i of the entries (d, i, j). -/
theorem sum_mid_apply (src : FVec Ideal S8x256x256 .f32) (h : S8x256x256.Reduces [1] S8x256) (hφ : FKind.Formats .f32)
    (hacc : (0x00000000#32 : BitVec 32) = FKind.add.neutral .f32 hφ) (d : Fin 8) (j : Fin 256) :
    multiReduction .add [1] S8x256 src 0x00000000#32 h hφ hacc (ix2 d j) = ∑ k : Fin 256, src (ix3 d k j) := by
  refine (Ideal.multiReduction_add_single src 0x00000000#32 h hφ hacc (ix2 d j)).trans ?_
  refine Finset.sum_congr rfl fun k _ => congrArg src ?_
  funext a; apply Fin.ext
  match a with
  | ⟨0, _⟩ => rfl
  | ⟨1, _⟩ => rfl
  | ⟨2, _⟩ => rfl

/-- The maximum over the middle axis, at (d, j): the maximum from -∞ over i of the entries (d, i, j). -/
theorem max_mid_apply (src : FVec Ideal S8x256x256 .f32) (h : S8x256x256.Reduces [1] S8x256) (hφ : FKind.Formats .f32)
    (hacc : (0xFF800000#32 : BitVec 32) = FKind.maximumf.neutral .f32 hφ) (d : Fin 8) (j : Fin 256) :
    multiReduction .maximumf [1] S8x256 src 0xFF800000#32 h hφ hacc (ix2 d j) = famMax fun k => src (ix3 d k j) := by
  refine (Ideal.multiReduction_maximumf_single src 0xFF800000#32 h hφ hacc (ix2 d j)).trans ?_
  unfold famMax
  refine congrArg (Finset.fold max _ · Finset.univ) ?_
  funext k
  refine congrArg src ?_
  funext a; apply Fin.ext
  match a with
  | ⟨0, _⟩ => rfl
  | ⟨1, _⟩ => rfl
  | ⟨2, _⟩ => rfl

/-- The maximum over the last axis, at (d, b): the maximum from -∞ over i of the entries (d, b, i). -/
theorem max_last_apply (src : FVec Ideal S8x256x256 .f32) (h : S8x256x256.Reduces [2] S8x256) (hφ : FKind.Formats .f32)
    (hacc : (0xFF800000#32 : BitVec 32) = FKind.maximumf.neutral .f32 hφ) (d : Fin 8) (b : Fin 256) :
    multiReduction .maximumf [2] S8x256 src 0xFF800000#32 h hφ hacc (ix2 d b) = famMax fun k => src (ix3 d b k) := by
  refine (Ideal.multiReduction_maximumf_single src 0xFF800000#32 h hφ hacc (ix2 d b)).trans ?_
  unfold famMax
  refine congrArg (Finset.fold max _ · Finset.univ) ?_
  funext k
  refine congrArg src ?_
  funext a; apply Fin.ext
  match a with
  | ⟨0, _⟩ => rfl
  | ⟨1, _⟩ => rfl
  | ⟨2, _⟩ => rfl

/-! ## The batched contraction at explicit coordinates -/

/-- The contraction's record: batch axis d on both sides, the left operand's last axis against the right
    operand's middle axis. -/
abbrev dotK : DotDims S8x256x256 S8x256x256 S8x256x256 := dot_S8x256x256_S8x256x256_S8x256x256_2_1_1_2_0_0

theorem lhsK_0 (i : S8x256x256.Idx) (q : dotK.contr.Idx) : (dotK.lhsIdx i q 0).val = (i 0).val := by
  unfold DotDims.lhsIdx
  rw [dif_pos (show (0 : Fin S8x256x256.rank) ∈ dotK.lhsBatch by decide)]
  rfl
theorem lhsK_1 (i : S8x256x256.Idx) (q : dotK.contr.Idx) : (dotK.lhsIdx i q 1).val = (i 1).val := by
  unfold DotDims.lhsIdx
  rw [dif_neg (show ¬(1 : Fin S8x256x256.rank) ∈ dotK.lhsBatch by decide), dif_pos (show (1 : Fin S8x256x256.rank) ∈ dotK.lhsNonContracting by decide)]
  rfl
theorem lhsK_2 (i : S8x256x256.Idx) (q : dotK.contr.Idx) : (dotK.lhsIdx i q 2).val = (q ⟨0, by decide⟩).val :=
  dotK.lhsIdx_val_of_single rfl i q
theorem rhsK_0 (i : S8x256x256.Idx) (q : dotK.contr.Idx) : (dotK.rhsIdx i q 0).val = (i 0).val := by
  unfold DotDims.rhsIdx
  rw [dif_pos (show (0 : Fin S8x256x256.rank) ∈ dotK.rhsBatch by decide)]
  rfl
theorem rhsK_1 (i : S8x256x256.Idx) (q : dotK.contr.Idx) : (dotK.rhsIdx i q 1).val = (q ⟨0, by decide⟩).val :=
  dotK.rhsIdx_val_of_single rfl i q
theorem rhsK_2 (i : S8x256x256.Idx) (q : dotK.contr.Idx) : (dotK.rhsIdx i q 2).val = (i 2).val := by
  unfold DotDims.rhsIdx
  rw [dif_neg (show ¬(2 : Fin S8x256x256.rank) ∈ dotK.rhsBatch by decide), dif_pos (show (2 : Fin S8x256x256.rank) ∈ dotK.rhsNonContracting by decide)]
  rfl

/-- The product into a zero accumulator, at (d, b, j): the sum over i of left (d, b, i) times right (d, i, j). -/
theorem matmul_apply3 {φ₁ φ₂ : FTy} (l : FVec Ideal S8x256x256 φ₁) (r : FVec Ideal S8x256x256 φ₂) (d : Fin 8) (b j : Fin 256) :
    matmul dotK none l r (constant S8x256x256 .f32 0x00000000#32) (ix3 d b j)
      = ∑ k : Fin 256, l (ix3 d b k) * r (ix3 d k j) := by
  simp only [matmul]
  rw [Ideal.matmul_constant_zero_apply, ← Equiv.sum_comp (ValueIdx.contrEquiv1 dotK 256 rfl rfl).symm]
  refine Finset.sum_congr rfl fun k _ => ?_
  have hk := ValueIdx.contrEquiv1_symm_val dotK 256 rfl rfl k
  have el : dotK.lhsIdx (ix3 d b j) ((ValueIdx.contrEquiv1 dotK 256 rfl rfl).symm k) = ix3 d b k := funext fun a => Fin.ext (by
    match a with
    | ⟨0, _⟩ => exact lhsK_0 _ _
    | ⟨1, _⟩ => exact lhsK_1 _ _
    | ⟨2, _⟩ => exact (lhsK_2 _ _).trans hk)
  have er : dotK.rhsIdx (ix3 d b j) ((ValueIdx.contrEquiv1 dotK 256 rfl rfl).symm k) = ix3 d k j := funext fun a => Fin.ext (by
    match a with
    | ⟨0, _⟩ => exact rhsK_0 _ _
    | ⟨1, _⟩ => exact (rhsK_1 _ _).trans hk
    | ⟨2, _⟩ => exact rhsK_2 _ _)
  rw [el, er]

end Cert.DenseSum.KernelSide

end
-- ==== Proof.KernelPayload.lean ====
/-
  The kernel body's stored value at an index: `core` of a row of the first block and of the directly
  normalised column of the second.

  The body's value is written once more as a composition of named stages — the two blocks without their unit
  axis, the normalised log-weights, the row maxima and the column maxima — and each stage is read at explicit
  coordinates; the stored value at (·, d, b, j) then unfolds to the specification's `core`.
-/
import proofs.«107394_j28698971471971_1_alg».proof.Proof.KernelOps

noncomputable section

namespace Cert.DenseSum.KernelSide

open Cert.KernelIdeal Cert.KernelIdeal.Gen Idealize.ShloMosaic Idealize.ShloMosaic.ValueIdx Cert.DenseSum

variable (x0 x1 : Vec Ideal S1x8x256x256 .f32)

/-- A block without its leading unit axis. -/
def unblock (x : Vec Ideal S1x8x256x256 .f32) : FVec Ideal S8x256x256 .f32 :=
  shapeCast S8x256x256 x shapeCasts_S1x8x256x256_S8x256x256

theorem unblock_apply (x : Vec Ideal S1x8x256x256 .f32) (d : Fin 8) (b k : Fin 256) :
    unblock x (ix3 d b k) = x (ix4 (0 : Fin 1) d b k) :=
  shapeCast_1abc_abc_apply x _ d b k

/-- The normalised log-weights of the weight block: log a - log (column sum of a). -/
def logW (x1 : Vec Ideal S1x8x256x256 .f32) : FVec Ideal S8x256x256 .f32 :=
  subf (log (unblock x1))
    (broadcastTo S8x256x256
      (log (shapeCast S8x1x256
        (multiReduction .add [1] S8x256 (unblock x1) 0x00000000#32 reduces_S8x256x256_S8x256 (.inl rfl) rfl)
        shapeCasts_S8x256_S8x1x256))
      broadcasts_S8x1x256_S8x256x256)

theorem logW_apply (x1 : Vec Ideal S1x8x256x256 .f32) (d : Fin 8) (k j : Fin 256) :
    logW x1 (ix3 d k j) = lwDirect (fun i => x1 (ix4 (0 : Fin 1) d i j)) k := by
  unfold logW lwDirect
  rw [subf_apply, bcast_mid_apply]
  show Ideal.log (unblock x1 (ix3 d k j)) - Ideal.log (shapeCast S8x1x256 _ _ (ix3 d (0 : Fin 1) j)) = _
  rw [cast_mid_apply]
  refine congrArg₂ (fun p q => Ideal.log p - Ideal.log q) (unblock_apply x1 d k j) ?_
  refine (sum_mid_apply (unblock x1) _ _ _ d j).trans ?_
  simp only [unblock_apply]

/-- The row maxima of the value block, kept as a unit last axis. -/
def rowMaxK (x0 : Vec Ideal S1x8x256x256 .f32) : FVec Ideal S8x256x1 .f32 :=
  shapeCast S8x256x1
    (multiReduction .maximumf [2] S8x256 (unblock x0) 0xFF800000#32 reduces_S8x256x256_S8x256_2 (.inl rfl) rfl)
    shapeCasts_S8x256_S8x256x1

theorem rowMaxK_apply (x0 : Vec Ideal S1x8x256x256 .f32) (d : Fin 8) (b : Fin 256) (u : Fin 1) :
    rowMaxK x0 (ix3 d b u) = famMax fun k => x0 (ix4 (0 : Fin 1) d b k) := by
  unfold rowMaxK
  rw [cast_last_apply]
  refine (max_last_apply (unblock x0) _ _ _ d b).trans ?_
  simp only [unblock_apply]

/-- The column maxima of the normalised log-weights, kept as a unit middle axis. -/
def colMaxK (x1 : Vec Ideal S1x8x256x256 .f32) : FVec Ideal S8x1x256 .f32 :=
  shapeCast S8x1x256
    (multiReduction .maximumf [1] S8x256 (logW x1) 0xFF800000#32 reduces_S8x256x256_S8x256 (.inl rfl) rfl)
    shapeCasts_S8x256_S8x1x256

theorem colMaxK_apply (x1 : Vec Ideal S1x8x256x256 .f32) (d : Fin 8) (u : Fin 1) (j : Fin 256) :
    colMaxK x1 (ix3 d u j) = famMax (lwDirect fun i => x1 (ix4 (0 : Fin 1) d i j)) := by
  unfold colMaxK
  rw [cast_mid_apply]
  refine (max_mid_apply (logW x1) _ _ _ d j).trans ?_
  simp only [logW_apply]

/-- The body's stored value as a composition of the named stages. -/
theorem pay_eq :
    k0_pay1 (F := Ideal) x0 x1 =
      shapeCast S1x8x256x256
        (addf
          (addf
            (log (matmul dotK none
              (truncf .bf16 (exp (subf (unblock x0) (broadcastTo S8x256x256 (rowMaxK x0) broadcasts_S8x256x1_S8x256x256))) bitsLt_bf16_f32)
              (truncf .bf16 (exp (subf (logW x1) (broadcastTo S8x256x256 (colMaxK x1) broadcasts_S8x1x256_S8x256x256))) bitsLt_bf16_f32)
              (constant S8x256x256 .f32 0x00000000#32)))
            (broadcastTo S8x256x256 (rowMaxK x0) broadcasts_S8x256x1_S8x256x256))
          (broadcastTo S8x256x256 (colMaxK x1) broadcasts_S8x1x256_S8x256x256))
        shapeCasts_S8x256x256_S1x8x256x256 := rfl

/-- THE PAYLOAD AT AN INDEX: entry (·, d, b, j) of what the body stores is `core` of row (d, b, ·) of the value
    block and of the directly normalised column (d, ·, j) of the weight block. -/
theorem payload_apply (u : Fin 1) (d : Fin 8) (b j : Fin 256) :
    k0_pay1 (F := Ideal) x0 x1 (ix4 u d b j)
      = core (fun k => x0 (ix4 (0 : Fin 1) d b k)) (lwDirect fun k => x1 (ix4 (0 : Fin 1) d k j)) := by
  rw [pay_eq, shapeCast_abc_1abc_apply, addf_apply, addf_apply, bcast_mid_apply, bcast_last_apply, rowMaxK_apply, colMaxK_apply]
  show Ideal.log (matmul (F := Ideal) dotK none _ _ (constant S8x256x256 .f32 0x00000000#32) (ix3 d b j)) + _ + _ = _
  rw [matmul_apply3]
  unfold core
  refine congrArg (fun t => Ideal.log t + _ + _) (Finset.sum_congr rfl fun k _ => ?_)
  show Ideal.exp (unblock x0 (ix3 d b k) - broadcastTo S8x256x256 (rowMaxK x0) broadcasts_S8x256x1_S8x256x256 (ix3 d b k))
      * Ideal.exp (logW x1 (ix3 d k j) - broadcastTo S8x256x256 (colMaxK x1) broadcasts_S8x1x256_S8x256x256 (ix3 d k j)) = _
  rw [bcast_last_apply, bcast_mid_apply, rowMaxK_apply, colMaxK_apply, unblock_apply, logW_apply]

end Cert.DenseSum.KernelSide

end
-- ==== Proof.KernelValue.lean ====
/-
  From blocks to the array: the kernel's result array is `outDirect` of its two argument arrays.

  Grid point t handles scope s = t: its three windows are the slabs x[s], a[s] and out[s], each a block of shape
  [1, 8, 256, 256] at block index (s, 0, 0, 0). What the point writes back is therefore the slab s of
  `outDirect x a` (an entry of the result depends on its own scope's slabs only), the 32 slabs cover the result
  array, and so the array ends holding `outDirect x a` everywhere.
-/
import proofs.«107394_j28698971471971_1_alg».proof.Proof.KernelPayload
import proofs.«107394_j28698971471971_1_alg».proof.Proof.Gen.KernelIdeal.Value
import Idealize.ShloMosaic.Lib.Pipeline.Value

noncomputable section

open Idealize.ShloMosaic Idealize.ShloMosaic.TcCoe Idealize.SL.Sem
open Idealize.ShloMosaic.Pipeline (Dat)

namespace Cert.DenseSum.KernelSide

open Cert.KernelIdeal Cert.KernelIdeal.Gen Cert.KernelIdeal.Value Idealize.ShloMosaic.ValueIdx Cert.DenseSum

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps over the grid: all three windows sit at the same scope, which is below 32, and at
    block 0 on the other three axes. -/
theorem idx_facts : ∀ t : Fin cfg0.N,
    win0_0.index t (0 : Fin 4) = win0_2.index t (0 : Fin 4) ∧ win0_1.index t (0 : Fin 4) = win0_2.index t (0 : Fin 4)
    ∧ win0_2.index t (0 : Fin 4) < 32
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_2.index t (1 : Fin 4) = 0 ∧ win0_2.index t (2 : Fin 4) = 0 ∧ win0_2.index t (3 : Fin 4) = 0 :=
  (by decide +kernel : ∀ t : Fin grid0.N, _)

/-- Every scope is some point's. -/
theorem idx_onto : ∀ q : Fin 32, ∃ t : Fin cfg0.N, win0_2.index t (0 : Fin 4) = q.val :=
  (by decide +kernel : ∀ q : Fin 32, ∃ t : Fin grid0.N, win0_2.index t (0 : Fin 4) = q.val)

/-- The value window's block at point t is the slab of its scope. -/
theorem iblk0_apply (c : Dev nD) (t : Fin cfg0.N) (s : Fin 32) (hs : win0_2.index t (0 : Fin 4) = s.val)
    (d : Fin 8) (b k : Fin 256) :
    (iblk m c 0 t : Vec Ideal S1x8x256x256 .f32) (ix4 (0 : Fin 1) d b k)
      = (m ((c : Thread nD τ).loc main_arg0) : S32x8x256x256.Idx → EReal) (ix4 s d b k) := by
  obtain ⟨e0, e1, e2, a1, a2, a3, b1, b2, b3, c1, c2, c3⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = s.val; omega
  | ⟨1, _⟩ => show win0_0.index t (1 : Fin 4) * 8 + 1 * d.val = d.val; omega
  | ⟨2, _⟩ => show win0_0.index t (2 : Fin 4) * 256 + 1 * b.val = b.val; omega
  | ⟨3, _⟩ => show win0_0.index t (3 : Fin 4) * 256 + 1 * k.val = k.val; omega

/-- The weight window's block at point t is the slab of its scope. -/
theorem iblk1_apply (c : Dev nD) (t : Fin cfg0.N) (s : Fin 32) (hs : win0_2.index t (0 : Fin 4) = s.val)
    (d : Fin 8) (k j : Fin 256) :
    (iblk m c 1 t : Vec Ideal S1x8x256x256 .f32) (ix4 (0 : Fin 1) d k j)
      = (m ((c : Thread nD τ).loc main_arg1) : S32x8x256x256.Idx → EReal) (ix4 s d k j) := by
  obtain ⟨e0, e1, e2, a1, a2, a3, b1, b2, b3, c1, c2, c3⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = s.val; omega
  | ⟨1, _⟩ => show win0_1.index t (1 : Fin 4) * 8 + 1 * d.val = d.val; omega
  | ⟨2, _⟩ => show win0_1.index t (2 : Fin 4) * 256 + 1 * k.val = k.val; omega
  | ⟨3, _⟩ => show win0_1.index t (3 : Fin 4) * 256 + 1 * j.val = j.val; omega

/-- One slab of the layer from the two slabs it reads: for blocks x0, x1 that are the slabs of scope s of the
    arrays X, A, the body's stored value at an entry of the block is `outDirect X A` at the same entry of slab s. -/
theorem slab_value (X A : Sh4.Idx → EReal) (x0 x1 : Vec Ideal S1x8x256x256 .f32) (s : Fin 32)
    (h0 : ∀ (d : Fin 8) (b k : Fin 256), x0 (ix4 (0 : Fin 1) d b k) = X (ix4 s d b k))
    (h1 : ∀ (d : Fin 8) (k j : Fin 256), x1 (ix4 (0 : Fin 1) d k j) = A (ix4 s d k j))
    (u : Fin 1) (d : Fin 8) (b j : Fin 256) :
    k0_pay1 (F := Ideal) x0 x1 (ix4 u d b j) = outDirect X A (ix4 s d b j) := by
  rw [payload_apply]
  show _ = core (rowOf X s d b) (lwDirect (colOf A s d j))
  unfold rowOf colOf
  simp only [h0, h1]

/-- WHAT POINT t WRITES BACK is block t of `outDirect` of the two argument arrays. -/
theorem flushed_eq (c : Dev nD) (t : Fin cfg0.N) :
    (dats m 0 c).flushed 2 t = ((cfg0.win 2).blk t).view.read (Elt Ideal)
      (outDirect (m ((c : Thread nD τ).loc main_arg0)) (m ((c : Thread nD τ).loc main_arg1))) := by
  rw [flushed2]
  unfold out0_2
  rw [View.canon_unit_zero hz4]
  simp only [View.ld_unit_zero (S := S1x8x256x256) hz4]
  obtain ⟨e0, e1, e2, a1, a2, a3, b1, b2, b3, c1, c2, c3⟩ := idx_facts t
  funext y
  obtain ⟨u, d, b, j, rfl⟩ : ∃ (u : Fin 1) (d : Fin 8) (b j : Fin 256), y = ix4 u d b j := ⟨y 0, y 1, y 2, y 3, eq_ix4 y⟩
  have hu : u.val = 0 := by omega
  have hemb : ((cfg0.win 2).blk t).view.emb (ix4 u d b j) = ix4 (⟨win0_2.index t (0 : Fin 4), e2⟩ : Fin 32) d b j := by
    funext a
    apply Fin.ext
    match a with
    | ⟨0, _⟩ => show win0_2.index t (0 : Fin 4) * 1 + 1 * u.val = win0_2.index t (0 : Fin 4); omega
    | ⟨1, _⟩ => show win0_2.index t (1 : Fin 4) * 8 + 1 * d.val = d.val; omega
    | ⟨2, _⟩ => show win0_2.index t (2 : Fin 4) * 256 + 1 * b.val = b.val; omega
    | ⟨3, _⟩ => show win0_2.index t (3 : Fin 4) * 256 + 1 * j.val = j.val; omega
  show k0_pay1 (F := Ideal) (iblk m c 0 t) (iblk m c 1 t) (ix4 u d b j)
      = outDirect (m ((c : Thread nD τ).loc main_arg0)) (m ((c : Thread nD τ).loc main_arg1)) (((cfg0.win 2).blk t).view.emb (ix4 u d b j))
  rw [hemb]
  exact slab_value _ _ _ _ ⟨win0_2.index t (0 : Fin 4), e2⟩
    (fun d b k => iblk0_apply m c t _ rfl d b k) (fun d k j => iblk1_apply m c t _ rfl d k j) u d b j

/-- An index of the array is in point t's block iff each coordinate is in the block's range on its axis. -/
theorem mem_blk (t : Fin cfg0.N) (i : S32x8x256x256.Idx) :
    i ∈ ((cfg0.win 2).blk t).view.set ↔ ∀ a : Fin 4, win0_2.index t a * S1x8x256x256.size a ≤ (i a).val ∧ (i a).val < win0_2.index t a * S1x8x256x256.size a + S1x8x256x256.size a := by
  show i ∈ ((View.whole main_v0).slice (win0_2.rect t)).set ↔ _
  rw [View.set_slice_whole, Rect.mem_set_unit]
  exact Iff.rfl

/-- The 32 slabs cover the result array: index i lies in the block of the point whose scope is i's. -/
theorem covered (i : S32x8x256x256.Idx) :
    ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 256 := (i 2).isLt
  have hi3 : (i 3).val < 256 := (i 3).isLt
  obtain ⟨t, ht⟩ := idx_onto ⟨(i 0).val, hi0⟩
  have ht' : win0_2.index t (0 : Fin 4) = (i 0).val := ht
  obtain ⟨e0, e1, e2, a1, a2, a3, b1, b2, b3, c1, c2, c3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE RESULT ARRAY after the run is `outDirect` of the two argument arrays. -/
theorem final (c : Dev nD) :
    (dats m 0 c).arrAt 2 cfg0.N = outDirect (m ((c : Thread nD τ).loc main_arg0)) (m ((c : Thread nD τ).loc main_arg1)) :=
  (dats m 0 c).arrAt_eq_of_cover 2 _ (fun t _ => flushed_eq m c t) covered

/-- The kernel's run, read: the result at `outDirect` of the arguments, the arguments unchanged. -/
theorem run : θ_run defs (onTc (τ := τ) (main (F := Ideal))) ⟨m, fun _ => 0, ρ⟩ fun r => ∀ c : Dev nD,
      r.2.mem ((c : Thread nD τ).loc main_v0) = outDirect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.DenseSum.KernelSide

end
-- ==== Proof.RefValue.lean ====
/-
  The value of the reference program, index by index.

  The reference computes, for weights a (second argument) and log-values x (first argument), at (s, d, b, j):

      z        = log a                                        elementwise
      M        = max (-∞) (max over k of z (s, d, k, j))       the shift of the log-softmax of column (s, d, ·, j)
      w k      = (z k - M) - log (0 + ∑ k', exp (z k' - M))    the log-softmax of that column
      xm       = max over k of x (s, d, b, k)                  the maximum of row (s, d, b, ·)
      wm       = max over k of w k                             the maximum of the column w
      result   = log (∑ k, exp (x (s,d,b,k) - xm) * exp (w k - wm)) + xm + wm.

  Each line is one or a few operations of the program; a broadcast reads its operand at the index with the broadcast
  axis dropped, a maximum over one axis is the fold of max from the -∞ word over that axis's 256 coordinates, the sum
  over one axis is the initial word plus the sum over the 256 coordinates, and the contraction is the sum over the
  shared coordinate of the products. Put together the result is `core (row of x) (lwSoftmax (column of a))`, the
  specification's `outSoftmax`.
-/
import Idealize.ShloMosaic.PureOps.Ideal.Laws
import Idealize.ShloMosaic.Lib.ValueIdx
import proofs.«107394_j28698971471971_1_alg».proof.Proof.RefReadP
import proofs.«107394_j28698971471971_1_alg».proof.Proof.Spec

noncomputable section

namespace Cert.DenseSum.RefSide

open Cert.ReferenceIdeal Cert.ReferenceIdeal.Gen Cert.ReferenceIdeal.ReadP Idealize.ShloMosaic Idealize.ShloMosaic.ValueIdx Cert.DenseSum

/-- A maximum over axis 2 (the rows of a column) started from the -∞ word, read at (s, d, j): max is commutative and
    associative, so the reduction is the fold of max over the axis's 256 coordinates k of the operand at (s, d, k, j). -/
theorem colMax (Y : FVec Ideal S32x8x256x256 .f32) (init : FVec Ideal S_ .f32)
    (hinit : init (Shape.Idx.first h_S_) = negInf) (s : Fin 32) (d : Fin 8) (j : Fin 256) :
    Host.reduce FloatOps.maximumf Y init reducesTo_S32x8x256x256_S32x8x256_d2 h_S_ (ix3 s d j)
      = famMax fun k => Y (ix4 s d k j) := by
  have hR : S32x8x256x256.Reduces [2] S32x8x256 := by decide
  rw [Host.reduce_eq_fold_single FloatOps.maximumf Y init reducesTo_S32x8x256x256_S32x8x256_d2 hR h_S_, hinit]
  have e : (Y ∘ hR.lift (ix3 s d j)) = fun k : Fin 256 => Y (ix4 s d k j) :=
    funext fun k => congrArg Y (funext fun a => Fin.ext (by
      match a with | ⟨0, _⟩ => rfl | ⟨1, _⟩ => rfl | ⟨2, _⟩ => rfl | ⟨3, _⟩ => rfl))
  rw [e]; rfl

/-- A maximum over axis 3 (the entries of a row) started from the -∞ word, read at (s, d, b): the fold of max over the
    256 coordinates k of the operand at (s, d, b, k). -/
theorem rowMax (Y : FVec Ideal S32x8x256x256 .f32) (init : FVec Ideal S_ .f32)
    (hinit : init (Shape.Idx.first h_S_) = negInf) (s : Fin 32) (d : Fin 8) (b : Fin 256) :
    Host.reduce FloatOps.maximumf Y init reducesTo_S32x8x256x256_S32x8x256_d3 h_S_ (ix3 s d b)
      = famMax fun k => Y (ix4 s d b k) := by
  have hR : S32x8x256x256.Reduces [3] S32x8x256 := by decide
  rw [Host.reduce_eq_fold_single FloatOps.maximumf Y init reducesTo_S32x8x256x256_S32x8x256_d3 hR h_S_, hinit]
  have e : (Y ∘ hR.lift (ix3 s d b)) = fun k : Fin 256 => Y (ix4 s d b k) :=
    funext fun k => congrArg Y (funext fun a => Fin.ext (by
      match a with | ⟨0, _⟩ => rfl | ⟨1, _⟩ => rfl | ⟨2, _⟩ => rfl | ⟨3, _⟩ => rfl))
  rw [e]; rfl

/-- The shift of the log-softmax at column (s, d, ·, j): the maximum of the -∞ word and the column maximum of log a. -/
theorem shift_apply (A : Sh4.Idx → EReal) (s : Fin 32) (d : Fin 8) (j : Fin 256) :
    val_main_call0_v2 (F := Ideal) A (ix3 s d j) = lsmShift (colOf A s d j) := by
  rw [val_main_call0_v2_apply, val_main_call0_v1_apply, val_main_call0_cst_0_apply]
  unfold val_main_call0_v0
  rw [colMax _ _ rfl]
  rfl

/-- The shifted logarithm z k - M at (s, d, k, j): the shift is broadcast back along axis 2, so it is read at (s, d, j). -/
theorem c5_apply (A : Sh4.Idx → EReal) (s : Fin 32) (d : Fin 8) (k j : Fin 256) :
    val_main_call0_v5 (F := Ideal) A (ix4 s d k j)
      = Ideal.log (colOf A s d j k) - lsmShift (colOf A s d j) := by
  rw [val_main_call0_v5_apply, val_main_call0_v4_apply, val_main_call0_v3_apply, val_main_v0_apply]
  have e : idx_main_call0_v3 (idx_main_call0_v4 (ix4 s d k j)) = ix3 s d j :=
    funext fun a => Fin.ext (by match a with | ⟨0, _⟩ => rfl | ⟨1, _⟩ => rfl | ⟨2, _⟩ => rfl)
  rw [e, shift_apply]
  rfl

/-- The normaliser of the log-softmax at column (s, d, ·, j): the zero word plus ∑ k, exp (z k - M). -/
theorem sum7_apply (A : Sh4.Idx → EReal) (s : Fin 32) (d : Fin 8) (j : Fin 256) :
    val_main_call0_v7 (F := Ideal) A (ix3 s d j)
      = zeroW + ∑ k : Fin 256, Ideal.exp (Ideal.log (colOf A s d j k) - lsmShift (colOf A s d j)) := by
  rw [val_main_call0_v7_apply]
  refine congrArg₂ (· + ·) rfl (Finset.sum_congr rfl fun k _ => ?_)
  have e : idx_main_call0_v7 (ix3 s d j) k = ix4 s d k j :=
    funext fun a => Fin.ext (by match a with | ⟨0, _⟩ => rfl | ⟨1, _⟩ => rfl | ⟨2, _⟩ => rfl | ⟨3, _⟩ => rfl)
  rw [e, val_main_call0_v6_apply, c5_apply]
  rfl

/-- The log-softmax of log a at (s, d, k, j) is entry k of `lwSoftmax` of column (s, d, ·, j) of a: the logarithm of the
    normaliser is broadcast back along axis 2, so it is read at (s, d, j). -/
theorem lw_apply (A : Sh4.Idx → EReal) (s : Fin 32) (d : Fin 8) (k j : Fin 256) :
    val_main_v1 (F := Ideal) A (ix4 s d k j) = lwSoftmax (colOf A s d j) k := by
  rw [val_main_v1_apply, val_main_call0_v10_apply, val_main_call0_v9_apply, val_main_call0_v8_apply, c5_apply]
  have e : idx_main_call0_v8 (idx_main_call0_v10 (ix4 s d k j)) = ix3 s d j :=
    funext fun a => Fin.ext (by match a with | ⟨0, _⟩ => rfl | ⟨1, _⟩ => rfl | ⟨2, _⟩ => rfl)
  rw [e, sum7_apply]
  rfl

/-- The row maximum of x at (s, d, b). -/
theorem xmax_apply (X : Sh4.Idx → EReal) (s : Fin 32) (d : Fin 8) (b : Fin 256) :
    val_main_v2 (F := Ideal) X (ix3 s d b) = famMax (rowOf X s d b) := by
  unfold val_main_v2
  rw [rowMax _ _ rfl]
  rfl

/-- The column maximum of the normalised log-weights at (s, d, j). -/
theorem wmax_apply (A : Sh4.Idx → EReal) (s : Fin 32) (d : Fin 8) (j : Fin 256) :
    val_main_v4 (F := Ideal) A (ix3 s d j) = famMax (lwSoftmax (colOf A s d j)) := by
  unfold val_main_v4
  rw [colMax _ _ rfl]
  exact congrArg famMax (funext fun k => lw_apply A s d k j)

/-- The left factor of the contraction at (s, d, b, k): exp (x (s,d,b,k) - xm), the row maximum broadcast along axis 3. -/
theorem v8_at (X : Sh4.Idx → EReal) (s : Fin 32) (d : Fin 8) (b k : Fin 256) :
    val_main_v8 (F := Ideal) X (ix4 s d b k) = Ideal.exp (rowOf X s d b k - famMax (rowOf X s d b)) := by
  rw [val_main_v8_apply, val_main_v7_apply, val_main_v6_apply, val_main_v3_apply]
  have e : idx_main_v3 (idx_main_v6 (ix4 s d b k)) = ix3 s d b :=
    funext fun a => Fin.ext (by match a with | ⟨0, _⟩ => rfl | ⟨1, _⟩ => rfl | ⟨2, _⟩ => rfl)
  rw [e, xmax_apply]
  rfl

/-- The right factor of the contraction at (s, d, k, j): exp (w k - wm), the column maximum broadcast along axis 2. -/
theorem v11_at (A : Sh4.Idx → EReal) (s : Fin 32) (d : Fin 8) (k j : Fin 256) :
    val_main_v11 (F := Ideal) A (ix4 s d k j)
      = Ideal.exp (lwSoftmax (colOf A s d j) k - famMax (lwSoftmax (colOf A s d j))) := by
  rw [val_main_v11_apply, val_main_v10_apply, val_main_v9_apply, val_main_v5_apply, lw_apply]
  have e : idx_main_v5 (idx_main_v9 (ix4 s d k j)) = ix3 s d j :=
    funext fun a => Fin.ext (by match a with | ⟨0, _⟩ => rfl | ⟨1, _⟩ => rfl | ⟨2, _⟩ => rfl)
  rw [e, wmax_apply]
  rfl

/-- THE REFERENCE'S VALUE: at every index (s, d, b, j) the program's result is
    log (∑ k, exp (x_k - xm) * exp (w_k - wm)) + xm + wm with w the log-softmax column, which is `outSoftmax`. -/
theorem ref_value (X A : Sh4.Idx → EReal) :
    val_main_v17 (F := Ideal) X A = outSoftmax X A := by
  funext i
  obtain ⟨s, d, b, j, rfl⟩ : ∃ (s : Fin 32) (d : Fin 8) (b j : Fin 256), i = ix4 s d b j :=
    ⟨i 0, i 1, i 2, i 3, eq_ix4 i⟩
  rw [val_main_v17_apply, val_main_v15_apply, val_main_v13_apply, val_main_v12_apply, val_main_v14_apply,
    val_main_v16_apply, val_main_v3_apply, val_main_v5_apply]
  have e14 : idx_main_v3 (idx_main_v14 (ix4 s d b j)) = ix3 s d b :=
    funext fun a => Fin.ext (by match a with | ⟨0, _⟩ => rfl | ⟨1, _⟩ => rfl | ⟨2, _⟩ => rfl)
  have e16 : idx_main_v5 (idx_main_v16 (ix4 s d b j)) = ix3 s d j :=
    funext fun a => Fin.ext (by match a with | ⟨0, _⟩ => rfl | ⟨1, _⟩ => rfl | ⟨2, _⟩ => rfl)
  rw [e14, e16, xmax_apply, wmax_apply]
  have hsum : (∑ k : Fin 256, val_main_v8 (F := Ideal) X (lidx_main_v12 (ix4 s d b j) k)
        * val_main_v11 (F := Ideal) A (ridx_main_v12 (ix4 s d b j) k))
      = ∑ k : Fin 256, Ideal.exp (rowOf X s d b k - famMax (rowOf X s d b))
        * Ideal.exp (lwSoftmax (colOf A s d j) k - famMax (lwSoftmax (colOf A s d j))) :=
    Finset.sum_congr rfl fun k _ => by
      have el : lidx_main_v12 (ix4 s d b j) k = ix4 s d b k :=
        funext fun a => Fin.ext (by match a with | ⟨0, _⟩ => rfl | ⟨1, _⟩ => rfl | ⟨2, _⟩ => rfl | ⟨3, _⟩ => rfl)
      have er : ridx_main_v12 (ix4 s d b j) k = ix4 s d k j :=
        funext fun a => Fin.ext (by match a with | ⟨0, _⟩ => rfl | ⟨1, _⟩ => rfl | ⟨2, _⟩ => rfl | ⟨3, _⟩ => rfl)
      rw [el, er, v8_at, v11_at]
  rw [hsum]
  rfl

end Cert.DenseSum.RefSide

end
-- ==== Proof.lean ====
/-
  The dense log-sum layer: the kernel against its jnp reference, on the extended reals.

  For scope s, decomposition d, row b and column j both programs return

      log (∑ i, exp (x[s,d,b,i] - xm) * exp (w[s,d,i,j] - wm)) + xm + wm,

  xm the maximum of the row of x, wm the maximum of the column of the normalised log-weights w. The kernel
  normalises the weights directly, w = log a - log (∑ a) down a column; the reference takes a log-softmax of
  log a down the same column. For finite, strictly positive weights — the precondition — the two columns are
  the same real numbers (Proof/Law.lean), so the two results are equal entry by entry; nothing is asked of x.

  The kernel's result array is read off its run slab by slab (Proof/KernelValue.lean over Proof/KernelPayload.lean),
  the reference's off its run one operation at a time (Proof/RefValue.lean), the positivity of the weights off
  the precondition (Proof/PreFacts.lean). The idealisation rewrote nothing, so `preserves` is trivial; the
  three frames are the programs' runs with the result dropped.
-/
import proofs.«107394_j28698971471971_1_alg».proof.Defs
import proofs.«107394_j28698971471971_1_alg».proof.Proof.Gen.Kernel
import proofs.«107394_j28698971471971_1_alg».proof.Proof.Gen.Kernel.Skeleton
import proofs.«107394_j28698971471971_1_alg».proof.Proof.Gen.Kernel.Launch
import proofs.«107394_j28698971471971_1_alg».proof.Proof.Gen.Kernel.Points
import proofs.«107394_j28698971471971_1_alg».proof.Proof.Gen.Kernel.Frame
import proofs.«107394_j28698971471971_1_alg».proof.Proof.Gen.KernelIdeal
import proofs.«107394_j28698971471971_1_alg».proof.Proof.Gen.KernelIdeal.Skeleton
import proofs.«107394_j28698971471971_1_alg».proof.Proof.Gen.KernelIdeal.Launch
import proofs.«107394_j28698971471971_1_alg».proof.Proof.Gen.KernelIdeal.Points
import proofs.«107394_j28698971471971_1_alg».proof.Proof.Gen.KernelIdeal.Frame
import proofs.«107394_j28698971471971_1_alg».proof.Proof.Gen.KernelIdeal.Value
import proofs.«107394_j28698971471971_1_alg».proof.Proof.Gen.ReferenceIdeal
import proofs.«107394_j28698971471971_1_alg».proof.Proof.Gen.Pre_finite_inputs
import proofs.«107394_j28698971471971_1_alg».proof.Proof.Spec
import proofs.«107394_j28698971471971_1_alg».proof.Proof.Law
import proofs.«107394_j28698971471971_1_alg».proof.Proof.PreFacts
import proofs.«107394_j28698971471971_1_alg».proof.Proof.KernelValue
import proofs.«107394_j28698971471971_1_alg».proof.Proof.RefRunP
import proofs.«107394_j28698971471971_1_alg».proof.Proof.RefReadP
import proofs.«107394_j28698971471971_1_alg».proof.Proof.RefValue
import Idealize.ShloMosaic.Adequacy
import Idealize.ShloMosaic.Init

noncomputable section

namespace Cert.Proof

open Idealize.ShloMosaic Idealize.ShloMosaic.TcCoe Idealize.SL.Sem Cert.DenseSum

/-- The reference run's result term is the last stage of the operation-by-operation reading. -/
theorem res_eq_val (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v17 m c
      = Cert.ReferenceIdeal.ReadP.val_main_v17 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  unfold Cert.ReferenceIdeal.ValueP.res_main_v17; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the layer's value of the same argument arrays: the kernel's with the weights normalised
    directly, the reference's with the log-softmax, equal because the weights are positive reals. -/
theorem algebraic : Cert.algebraic_KernelIdeal_ReferenceIdeal := by
  intro m ρ m' ρ' hpre hagree
  refine ⟨fun c => outDirect (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), KernelSide.run m ρ, ?_⟩
  refine (θ_run Cert.ReferenceIdeal.defs _ _).mono (fun _ h c => ⟨(h c).1.trans ?_, (h c).2⟩)
    (Cert.ReferenceIdeal.ValueP.run (F := Ideal) m' ρ')
  rw [res_eq_val, (hagree c).1, (hagree c).2, RefSide.ref_value]
  exact (outDirect_eq_outSoftmax _ _ (weights_pos _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
